-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x8 : Shape := ⟨2, ![32, 8]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S32x256x64x64 .f32) (main_arg1 : FVec F S32x8 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  main_v8
-- ==== Kernel.lean ====
abbrev S32x256x64x64 : Shape := ⟨4, ![32, 256, 64, 64]⟩
abbrev S32x8 : Shape := ⟨2, ![32, 8]⟩
abbrev S32x264x64x64 : Shape := ⟨4, ![32, 264, 64, 64]⟩
abbrev S8x256x8x64 : Shape := ⟨4, ![8, 256, 8, 64]⟩
abbrev S8x8 : Shape := ⟨2, ![8, 8]⟩
abbrev S8x264x8x64 : Shape := ⟨4, ![8, 264, 8, 64]⟩
abbrev S8x8x1x1 : Shape := ⟨4, ![8, 8, 1, 1]⟩
abbrev S8x8x8x64 : Shape := ⟨4, ![8, 8, 8, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S32x8, .f32⟩
  | .hbm, ⟨2, _⟩ => ⟨S32x264x64x64, .f32⟩
  | .local _ .vmem, ⟨0, _⟩ => ⟨S8x256x8x64, .f32⟩
  | .local _ .vmem, ⟨1, _⟩ => ⟨S8x256x8x64, .f32⟩
  | .local _ .vmem, ⟨2, _⟩ => ⟨S8x8, .f32⟩
  | .local _ .vmem, ⟨3, _⟩ => ⟨S8x8, .f32⟩
  | .local _ .vmem, ⟨4, _⟩ => ⟨S8x264x8x64, .f32⟩
  | .local _ .vmem, ⟨5, _⟩ => ⟨S8x264x8x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x256x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x264x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x256x8x64_S8x256x8x64_0_0_0_0 : ∀ a, (![0, 0, 0, 0] : Fin 4 → Nat) a + S8x256x8x64.size a ≤ S8x256x8x64.size a
  h_S8x256x8x64 : 0 < S8x256x8x64.numel
  inb_S8x264x8x64_S8x256x8x64_0_0_0_0 : ∀ a, (![0, 0, 0, 0] : Fin 4 → Nat) a + S8x256x8x64.size a ≤ S8x264x8x64.size a
  inb_S8x8_S8x8_0_0 : ∀ a, (![0, 0] : Fin 2 → Nat) a + S8x8.size a ≤ S8x8.size a
  h_S8x8 : 0 < S8x8.numel
  shapeCasts_S8x8_S8x8x1x1 : S8x8.ShapeCasts S8x8x1x1
  shapeCasts_S8x8x1x1_S8x8x1x1 : S8x8x1x1.ShapeCasts S8x8x1x1
  broadcasts_S8x8x1x1_S8x8x8x64 : S8x8x1x1.Broadcasts S8x8x8x64
  inb_S8x264x8x64_S8x8x8x64_0_256_0_0 : ∀ a, (![0, 256, 0, 0] : Fin 4 → Nat) a + S8x8x8x64.size a ≤ S8x264x8x64.size a
  h_S8x8x8x64 : 0 < S8x8x8x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x64.size a ≤ S32x256x64x64.size a
  hwx0_0 : ∀ i : grid0.Coords, EltTy.bits .f32 = 32 ∨ (Rect.block (s := S32x256x64x64) S8x256x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S32x8.size a
  hwx0_1 : ∀ i : grid0.Coords, EltTy.bits .f32 = 32 ∨ (Rect.block (s := S32x8) S8x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x264x8x64.size a ≤ S32x264x64x64.size a
  hwx0_2 : ∀ i : grid0.Coords, EltTy.bits .f32 = 32 ∨ (Rect.block (s := S32x264x64x64) S8x264x8x64.size (cc0_transform_2 i) (hinb0_2 i)).WholeWords (EltTy.packing .f32)

variable [Facts₀]

abbrev win0_0 : Pipeline.Window sig grid0 :=
  Pipeline.Window.ofSpec (Memref.whole main_arg0) S8x256x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x264x8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x8 : Shape := ⟨2, ![32, 8]⟩
abbrev S32x8x1x1 : Shape := ⟨4, ![32, 8, 1, 1]⟩
abbrev S32x8x64x64 : Shape := ⟨4, ![32, 8, 64, 64]⟩
abbrev S32x264x64x64 : Shape := ⟨4, ![32, 264, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x8, .f32⟩
  | .hbm, ⟨2, _⟩ => ⟨S32x8x1x1, .f32⟩
  | .hbm, ⟨3, _⟩ => ⟨S32x8x64x64, .f32⟩
  | .hbm, ⟨4, _⟩ => ⟨S32x264x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S32x8_S32x8x1x1_0_1 : S32x8.BroadcastsInDim S32x8x1x1 (![0, 1] : Fin 2 → Fin S32x8x1x1.rank)
  bcast_S32x8x1x1_S32x8x64x64_0_1_2_3 : S32x8x1x1.BroadcastsInDim S32x8x64x64 (![0, 1, 2, 3] : Fin 4 → Fin S32x8x64x64.rank)
  concatenates_S32x256x64x64_S32x8x64x64_S32x264x64x64_d1 : Shape.Concatenates [S32x256x64x64, S32x8x64x64] S32x264x64x64 1

variable [Facts₀]

class Facts : Prop extends Facts₀ where

variable [Facts]
-- ==== Proof.Spec.lean ====
/-
  The result both programs compute, as one function of the two argument arrays.

  For a sample `b`, a channel `c`, and a spatial position `(h, w)`:
    * when `c < 256` the entry is `x[b, c, h, w]`;
    * when `256 ≤ c` the entry is `y[b, c - 256]`, the same at every spatial position.
  That is the concatenation, along the channel axis, of `x` with `y` repeated over the two spatial axes.
  Nothing is computed on the entries, so the function is stated for any type of entries.
-/
import Idealize.ShloMosaic.Lib.ValueIdx
import Idealize.ShloMosaic.Lib.Pipeline.Value

namespace Cert.ChanCat

open Idealize.ShloMosaic Idealize.ShloMosaic.ValueIdx

/-- The shape of `x`: 32 samples, 256 channels, 64 × 64 positions. -/
abbrev SX : Shape := ⟨4, ![32, 256, 64, 64]⟩
/-- The shape of `y`: 32 samples, 8 extra channels. -/
abbrev SY : Shape := ⟨2, ![32, 8]⟩
/-- The shape of the result: 32 samples, 256 + 8 channels, 64 × 64 positions. -/
abbrev SO : Shape := ⟨4, ![32, 264, 64, 64]⟩

/-- A channel of the result is below 264. -/
theorem chan_lt (j : SO.Idx) : (j 1).val < 264 := (j 1).isLt

/-- The channel-axis concatenation of `x` with `y` held constant over the spatial axes. -/
def chanCat {α : Type} (x : SX.Idx → α) (y : SY.Idx → α) : SO.Idx → α := fun j =>
  if h : (j 1).val < 256 then x (ix4 (j 0) ⟨(j 1).val, h⟩ (j 2) (j 3))
  else y (ix2 (j 0) ⟨(j 1).val - 256, by have := chan_lt j; omega⟩)

/-- On the first 256 channels the result is `x`. -/
theorem chanCat_low {α : Type} (x : SX.Idx → α) (y : SY.Idx → α) (j : SO.Idx) (h : (j 1).val < 256) :
    chanCat x y j = x (ix4 (j 0) ⟨(j 1).val, h⟩ (j 2) (j 3)) := dif_pos h

/-- On the last 8 channels the result is `y` at the sample and the channel less 256. -/
theorem chanCat_high {α : Type} (x : SX.Idx → α) (y : SY.Idx → α) (j : SO.Idx) (h : ¬ (j 1).val < 256) :
    chanCat x y j = y (ix2 (j 0) ⟨(j 1).val - 256, by have := chan_lt j; omega⟩) := dif_neg h

end Cert.ChanCat
-- ==== Proof.RefCat.lean ====
/-
  The reference computes the channel concatenation.

  Its last operation joins `x` and a second array along the channel axis; the second array is `y` given two unit
  spatial axes and then repeated along them, so its entry at `(b, k, h, w)` is `y[b, k]`. An entry of the joined
  array with channel `c < 256` is read from `x` at the same coordinates, and one with `256 ≤ c` from the second
  array at channel `c - 256`.
-/
import proofs.«169716_j40398462386567_2_alg».proof.Proof.Gen.ReferenceIdeal.Read
import proofs.«169716_j40398462386567_2_alg».proof.Proof.Spec

noncomputable section

namespace Cert.ReferenceIdeal.CatValue

open Cert.ReferenceIdeal Cert.ReferenceIdeal.Gen Cert.ReferenceIdeal.Read Cert.ChanCat
open Idealize.ShloMosaic Idealize.ShloMosaic.ValueIdx

variable {F : FTy → Type} [FloatOps F]

/-- `y` repeated over the spatial axes, at `(b, k, h, w)`, is `y[b, k]`. -/
theorem spread_apply (y : SY.Idx → Elt F .f32) (b : Fin 32) (k : Fin 8) (h w : Fin 64) :
    val_main_v1 (F := F) y (ix4 b k h w) = y (ix2 b k) := by
  rw [val_main_v1_apply, val_main_v0_apply]
  refine congrArg y (funext fun a => ?_)
  match a with
  | ⟨0, _⟩ => rfl
  | ⟨1, _⟩ => rfl

/-- The joined array is the channel concatenation of `x` with `y` held constant over the spatial axes. -/
theorem joined_eq (x : SX.Idx → Elt F .f32) (y : SY.Idx → Elt F .f32) :
    val_main_v2 (F := F) x y = chanCat x y := by
  funext j
  unfold val_main_v2
  by_cases hc : (j 1).val < 256
  · rw [chanCat_low x y j hc]
    exact concatenate_pair_apply_left (1 : Fin 4) x _ concatenates_S32x256x64x64_S32x8x64x64_S32x264x64x64_d1 j rfl
      (ix4 (j 0) ⟨(j 1).val, hc⟩ (j 2) (j 3)) (fun b => match b with
        | ⟨0, _⟩ => rfl
        | ⟨1, _⟩ => rfl
        | ⟨2, _⟩ => rfl
        | ⟨3, _⟩ => rfl)
  · rw [chanCat_high x y j hc]
    have hk : (j 1).val - 256 < 8 := by have := chan_lt j; omega
    rw [concatenate_pair_apply_right (1 : Fin 4) x (val_main_v1 (F := F) y)
      concatenates_S32x256x64x64_S32x8x64x64_S32x264x64x64_d1 j rfl rfl
      (ix4 (j 0) ⟨(j 1).val - 256, hk⟩ (j 2) (j 3))
      (fun b hb => match b, hb with
        | ⟨0, _⟩, _ => rfl
        | ⟨1, _⟩, hb => absurd rfl hb
        | ⟨2, _⟩, _ => rfl
        | ⟨3, _⟩, _ => rfl)
      (by show (j 1).val - 256 + 256 = (j 1).val; omega)]
    exact spread_apply y (j 0) ⟨(j 1).val - 256, hk⟩ (j 2) (j 3)

end Cert.ReferenceIdeal.CatValue

end
-- ==== Proof.LibCanonUnit.lean ====
/-
  The canonical contents of a list of writes, read one piece at a time when the newest piece is a unit-stride
  rectangle.

  `View.canon (p :: L)` is `p`'s payload on `p`'s rectangle and `View.canon L` elsewhere. For a unit-stride rectangle
  with offsets `off` and extents `size`, an index `y` lies in the rectangle exactly when `off a ≤ y a < off a + size a` on
  every axis, and then its position inside the rectangle is `y a - off a`. The two lemmas below say this with the
  position given by the caller, so that no membership statement about the rectangle is ever formed.
-/
import Idealize.ShloMosaic.Lib.Pipeline.FrameBody

namespace Idealize.ShloMosaic.View

variable {s : Shape} {e : EltTy} {Val : EltTy → Type}

/-- An index at position `x` of the newest piece's unit-stride rectangle (on every axis the index is the offset plus
    `x`) reads that piece's payload at `x`, whatever the earlier pieces are. -/
theorem canon_cons_unit_of_pos [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x := by
  have hy : (Rect.unit off size inb).emb x = y := funext fun a => Fin.ext (by
    show off a + 1 * (x a).val = (y a).val
    rw [hx a, Nat.one_mul])
  rw [← hy]
  exact canon_cons_emb (Rect.unit off size inb) w L x

/-- An index that on some axis `a` lies below the newest piece's unit-stride rectangle, or at or past its end, reads
    what the earlier pieces left. -/
theorem canon_cons_unit_of_off [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y := by
  refine canon_cons_of_not_mem _ L ?_
  show y ∉ (Rect.unit off size inb).set
  rw [Rect.mem_set_unit]
  intro hall
  have := hall a
  omega

end Idealize.ShloMosaic.View
-- ==== Proof.BlockCat.lean ====
/-
  What one grid point leaves in the output block, as a function of its two input blocks.

  The body stores twice into the output block of shape [8, 264, 8, 64]: the block of `x` (shape [8, 256, 8, 64]) onto
  channels 0 to 255, and, onto channels 256 to 263, the block of `y` (shape [8, 8]) given two unit axes and repeated
  along them, so that the stored entry at `(b, k, h, w)` is `y[b, k]`. The two stores have disjoint channel ranges and
  together fill the block: the entry at `(b, c, h, w)` is `x[b, c, h, w]` when `c < 256` and `y[b, c - 256]` otherwise.
-/
import proofs.«169716_j40398462386567_2_alg».proof.Proof.Gen.KernelIdeal.Frame
import proofs.«169716_j40398462386567_2_alg».proof.Proof.LibCanonUnit
import Idealize.ShloMosaic.Lib.Pipeline.Value
import Idealize.ShloMosaic.Lib.ValueIdx

noncomputable section

namespace Cert.KernelIdeal.BlockValue

open Cert.KernelIdeal Cert.KernelIdeal.Gen
open Idealize.ShloMosaic Idealize.ShloMosaic.TcCoe Idealize.ShloMosaic.ValueIdx Idealize.SL.Sem

variable {F : FTy → Type} [FloatOps F]

theorem zero4 : (![0, 0, 0, 0] : Fin 4 → Nat) = fun _ => 0 := funext fun a => by fin_cases a <;> rfl
theorem zero2 : (![0, 0] : Fin 2 → Nat) = fun _ => 0 := funext fun a => by fin_cases a <;> rfl

/-- A channel of the output block is below 264. -/
theorem bchan_lt (j : S8x264x8x64.Idx) : (j 1).val < 264 := (j 1).isLt

/-- The output block of one grid point: the block of `x` on the first 256 channels, the block of `y`, constant over
    the two spatial axes, on the last 8. -/
def blockCat (x0 : Vec F S8x256x8x64 .f32) (x1 : Vec F S8x8 .f32) : Vec F S8x264x8x64 .f32 := fun j =>
  if h : (j 1).val < 256 then x0 (ix4 (j 0) ⟨(j 1).val, h⟩ (j 2) (j 3))
  else x1 (ix2 (j 0) ⟨(j 1).val - 256, by have := bchan_lt j; omega⟩)

/-- The second store's value — the block of `y` with two unit axes added and repeated along them — at `(b, k, h, w)`
    is `y[b, k]`. -/
theorem spread_apply (x1 : Vec F S8x8 .f32) (b k : Fin 8) (h : Fin 8) (w : Fin 64) :
    k0_pay1 x1 (ix4 b k h w) = x1 (ix2 b k) := by
  unfold k0_pay1
  rw [broadcastTo_apply _ broadcasts_S8x8x1x1_S8x8x8x64 (ix4 b k h w) (ix4 b k (0 : Fin 1) (0 : Fin 1)) (fun a => match a with
    | ⟨0, _⟩ => by show b.val = if (8 : Nat) = 1 then 0 else b.val; rw [if_neg (by decide)]
    | ⟨1, _⟩ => by show k.val = if (8 : Nat) = 1 then 0 else k.val; rw [if_neg (by decide)]
    | ⟨2, _⟩ => by show 0 = if (1 : Nat) = 1 then 0 else h.val; rw [if_pos rfl]
    | ⟨3, _⟩ => by show 0 = if (1 : Nat) = 1 then 0 else w.val; rw [if_pos rfl])]
  rw [shapeCast_self]
  exact shapeCast_apply x1 shapeCasts_S8x8_S8x8x1x1 (ix4 b k (0 : Fin 1) (0 : Fin 1)) (ix2 b k) (by
    rw [Shape.rowMajor_val_two, Shape.rowMajor_val_four]
    show b.val * 8 + k.val = ((b.val * 8 + k.val) * 1 + 0) * 1 + 0
    omega)

/-- The contents the two stores leave in the output block are `blockCat` of the two input blocks. -/
theorem out_block (c : Dev nD) (i : grid0.Coords) (a2 : Memref sig .tc .vmem S8x256x8x64 .f32) (h2 : a2.IsWhole)
    (a3 : Memref sig .tc .vmem S8x8 .f32) (h3 : a3.IsWhole) (a4 : Memref sig .tc .vmem S8x264x8x64 .f32) (h4 : a4.IsWhole)
    (x0 : Vec F S8x256x8x64 .f32) (x1 : Vec F S8x8 .f32) :
    out0_A_2 c i a2 h2 a3 h3 a4 h4 x0 x1 = blockCat x0 x1 := by
  unfold out0_A_2
  rw [View.read_writes_eq_canon _ _ _ (cover0_A_2 c i a2 h2 a3 h3 a4 h4 x0 x1)]
  unfold kernelRun0_A
  dsimp only
  simp only [View.readAt_eq_ld, h2.read_unread, h3.read_unread, View.ld_unit_zero (S := S8x256x8x64) zero4,
    View.ld_unit_zero (S := S8x8) zero2]
  funext j
  unfold blockCat
  by_cases hc : (j 1).val < 256
  · rw [dif_pos hc]
    rw [View.canon_cons_unit_of_off _ _ _ j (1 : Fin 4) (Or.inl (by show (j 1).val < 256; exact hc))]
    exact View.canon_cons_unit_of_pos _ _ _ j (ix4 (j 0) ⟨(j 1).val, hc⟩ (j 2) (j 3)) (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show (j 3).val = 0 + (j 3).val; omega)
  · rw [dif_neg hc]
    have hk : (j 1).val - 256 < 8 := by have := bchan_lt j; omega
    refine (View.canon_cons_unit_of_pos (s := S8x264x8x64) (Val := Elt F) (e := .f32) (off := ![0, 256, 0, 0])
      (size := ![8, 8, 8, 64]) inb_S8x264x8x64_S8x8x8x64_0_256_0_0 _ _ j
      (ix4 (j 0) ⟨(j 1).val - 256, hk⟩ (j 2) (j 3)) (fun a => match a with
      | ⟨0, _⟩ => by show (j 0).val = 0 + (j 0).val; omega
      | ⟨1, _⟩ => by show (j 1).val = 256 + ((j 1).val - 256); omega
      | ⟨2, _⟩ => by show (j 2).val = 0 + (j 2).val; omega
      | ⟨3, _⟩ => by show (j 3).val = 0 + (j 3).val; omega)).trans ?_
    exact spread_apply x1 (j 0) ⟨(j 1).val - 256, hk⟩ (j 2) (j 3)

end Cert.KernelIdeal.BlockValue

end
-- ==== Proof.KernelCat.lean ====
/-
  From the blocks to the array: after the run the kernel's result array is the channel concatenation.

  The grid has 4 × 8 points. Point `(p, q)` reads block `(p, 0, q, 0)` of `x` (8 samples, all 256 channels, 8 rows,
  all 64 columns), block `(p, 0)` of `y` (8 samples, all 8 channels), and writes block `(p, 0, q, 0)` of the result
  (8 samples, all 264 channels, 8 rows, all 64 columns). An entry of a block sits in its array at
  block index × block extent + the coordinate inside the block, on every axis. Sample and row offsets are therefore the
  same for the three windows and the channel axis has no offset, so the block of the concatenation at a point is the
  concatenation of the two input blocks at that point, which is what the body leaves there. Every index `(b, c, h, w)`
  of the result lies in the block of the point `(b / 8, h / 8)`, so the blocks fill the array.
-/
import proofs.«169716_j40398462386567_2_alg».proof.Proof.Gen.KernelIdeal.Value
import proofs.«169716_j40398462386567_2_alg».proof.Proof.BlockCat
import proofs.«169716_j40398462386567_2_alg».proof.Proof.Spec

noncomputable section

namespace Cert.KernelIdeal.CatValue

open Cert.KernelIdeal Cert.KernelIdeal.Gen Cert.KernelIdeal.Value Cert.KernelIdeal.BlockValue Cert.ChanCat
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- A block of the concatenation is the concatenation of the blocks. `e0`, `e1`, `e2` place the entries of the three
    blocks in their arrays: samples at `p * 8 +` and rows at `q * 8 +` the coordinate inside the block, channels and
    columns unmoved. -/
theorem block_of_chanCat (X : SX.Idx → Elt F .f32) (Y : SY.Idx → Elt F .f32)
    (x0 : Vec F S8x256x8x64 .f32) (x1 : Vec F S8x8 .f32)
    (e0 : S8x256x8x64.Idx → SX.Idx) (e1 : S8x8.Idx → SY.Idx) (e2 : S8x264x8x64.Idx → SO.Idx) (p q : Nat)
    (hx0 : ∀ z, x0 z = X (e0 z)) (hx1 : ∀ z, x1 z = Y (e1 z))
    (h00 : ∀ z, (e0 z 0).val = p * 8 + (z 0).val) (h01 : ∀ z, (e0 z 1).val = (z 1).val)
    (h02 : ∀ z, (e0 z 2).val = q * 8 + (z 2).val) (h03 : ∀ z, (e0 z 3).val = (z 3).val)
    (h10 : ∀ z, (e1 z 0).val = p * 8 + (z 0).val) (h11 : ∀ z, (e1 z 1).val = (z 1).val)
    (h20 : ∀ z, (e2 z 0).val = p * 8 + (z 0).val) (h21 : ∀ z, (e2 z 1).val = (z 1).val)
    (h22 : ∀ z, (e2 z 2).val = q * 8 + (z 2).val) (h23 : ∀ z, (e2 z 3).val = (z 3).val)
    (j : S8x264x8x64.Idx) : blockCat x0 x1 j = chanCat X Y (e2 j) := by
  unfold blockCat chanCat
  have e21 := h21 j
  by_cases hc : (j 1).val < 256
  · rw [dif_pos hc, dif_pos (show (e2 j 1).val < 256 by rw [e21]; exact hc), hx0]
    refine congrArg X (funext fun a => Fin.ext ?_)
    match a with
    | ⟨0, _⟩ => show (e0 _ 0).val = (e2 j 0).val; rw [h00, h20]
    | ⟨1, _⟩ => show (e0 _ 1).val = (e2 j 1).val; rw [h01, h21]
    | ⟨2, _⟩ => show (e0 _ 2).val = (e2 j 2).val; rw [h02, h22]
    | ⟨3, _⟩ => show (e0 _ 3).val = (e2 j 3).val; rw [h03, h23]
  · rw [dif_neg hc, dif_neg (show ¬ (e2 j 1).val < 256 by rw [e21]; exact hc), hx1]
    refine congrArg Y (funext fun a => Fin.ext ?_)
    match a with
    | ⟨0, _⟩ => show (e1 _ 0).val = (e2 j 0).val; rw [h10, h20]
    | ⟨1, _⟩ => show (e1 _ 1).val = (e2 j 1).val - 256; rw [h11, h21]

/-- The three index maps over the grid: the input windows move with the output window on the sample and row axes,
    no window moves on the channel or column axis, and the output's block indices stay below 4 and 8. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 2) = win0_2.index t (0 : Fin 4) ∧ win0_1.index t (1 : Fin 2) = 0
    ∧ win0_2.index t (1 : Fin 4) = 0 ∧ win0_2.index t (3 : Fin 4) = 0
    ∧ win0_2.index t (0 : Fin 4) ≤ 3 ∧ win0_2.index t (2 : Fin 4) ≤ 7 :=
  (by decide +kernel : ∀ t : Fin grid0.N, _)

/-- Every block index `(p, 0, q, 0)` of the result is some grid point's. -/
theorem idx_onto : ∀ (p : Fin 4) (q : Fin 8), ∃ t : Fin cfg0.N, win0_2.index t = ![p.val, 0, q.val, 0] :=
  (by decide +kernel : ∀ (p : Fin 4) (q : Fin 8), ∃ t : Fin grid0.N, win0_2.index t = ![p.val, 0, q.val, 0])

/-- What point `t` writes back is block `t` of the channel concatenation of the argument arrays. -/
theorem flushed_eq (c : Dev nD) (t : Fin cfg0.N) :
    (dats m 0 c).flushed 2 t = ((cfg0.win 2).blk t).view.read (Elt F)
      (chanCat (m ((c : Thread nD τ).loc main_arg0)) (m ((c : Thread nD τ).loc main_arg1))) := by
  rw [flushed2_A, out_block]
  obtain ⟨f0, f1, f2, f3, f4, f5, f6, f7, f8, f9⟩ := idx_facts t
  funext j
  show blockCat (iblk m c 0 t) (iblk m c 1 t) j
    = chanCat (m ((c : Thread nD τ).loc main_arg0)) (m ((c : Thread nD τ).loc main_arg1)) (((cfg0.win 2).blk t).view.emb j)
  exact block_of_chanCat (m ((c : Thread nD τ).loc main_arg0)) (m ((c : Thread nD τ).loc main_arg1))
    (iblk m c 0 t) (iblk m c 1 t)
    ((cfg0.win 0).blk t).view.emb ((cfg0.win 1).blk t).view.emb ((cfg0.win 2).blk t).view.emb
    (win0_2.index t (0 : Fin 4)) (win0_2.index t (2 : Fin 4))
    (fun _ => rfl) (fun _ => rfl)
    (fun z => by show win0_0.index t (0 : Fin 4) * 8 + 1 * (z 0).val = _; rw [f0]; omega)
    (fun z => by show win0_0.index t (1 : Fin 4) * 256 + 1 * (z 1).val = _; rw [f1]; omega)
    (fun z => by show win0_0.index t (2 : Fin 4) * 8 + 1 * (z 2).val = _; rw [f2]; omega)
    (fun z => by show win0_0.index t (3 : Fin 4) * 64 + 1 * (z 3).val = _; rw [f3]; omega)
    (fun z => by show win0_1.index t (0 : Fin 2) * 8 + 1 * (z 0).val = _; rw [f4]; omega)
    (fun z => by show win0_1.index t (1 : Fin 2) * 8 + 1 * (z 1).val = _; rw [f5]; omega)
    (fun z => by show win0_2.index t (0 : Fin 4) * 8 + 1 * (z 0).val = _; omega)
    (fun z => by show win0_2.index t (1 : Fin 4) * 264 + 1 * (z 1).val = _; rw [f6]; omega)
    (fun z => by show win0_2.index t (2 : Fin 4) * 8 + 1 * (z 2).val = _; omega)
    (fun z => by show win0_2.index t (3 : Fin 4) * 64 + 1 * (z 3).val = _; rw [f7]; omega)
    j

/-- An index of the result lies in point `t`'s block exactly when each coordinate is in the block's range on its axis. -/
theorem mem_blk (t : Fin cfg0.N) (i : S32x264x64x64.Idx) :
    i ∈ ((cfg0.win 2).blk t).view.set ↔ ∀ a : Fin 4, win0_2.index t a * S8x264x8x64.size a ≤ (i a).val
      ∧ (i a).val < win0_2.index t a * S8x264x8x64.size a + S8x264x8x64.size a := by
  show i ∈ ((View.whole main_v0).slice (win0_2.rect t)).set ↔ _
  rw [View.set_slice_whole, Rect.mem_set_unit]
  exact Iff.rfl

/-- Every index `(b, c, h, w)` of the result lies in the block of the point whose block index is `(b / 8, 0, h / 8, 0)`. -/
theorem covered (i : S32x264x64x64.Idx) :
    ∃ t : Fin cfg0.N, (cfg0.win 2).flush t = true ∧ i ∈ ((cfg0.win 2).blk t).view.set := by
  have hi0 : (i 0).val < 32 := (i 0).isLt
  have hi1 : (i 1).val < 264 := (i 1).isLt
  have hi2 : (i 2).val < 64 := (i 2).isLt
  have hi3 : (i 3).val < 64 := (i 3).isLt
  obtain ⟨t, ht⟩ := idx_onto ⟨(i 0).val / 8, by omega⟩ ⟨(i 2).val / 8, by omega⟩
  have q0 : win0_2.index t (0 : Fin 4) = (i 0).val / 8 := congrFun ht 0
  have q1 : win0_2.index t (1 : Fin 4) = 0 := congrFun ht 1
  have q2 : win0_2.index t (2 : Fin 4) = (i 2).val / 8 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 264 ≤ (i 1).val ∧ (i 1).val < win0_2.index t (1 : Fin 4) * 264 + 264; omega
  | ⟨2, _⟩ => show win0_2.index t (2 : Fin 4) * 8 ≤ (i 2).val ∧ (i 2).val < win0_2.index t (2 : Fin 4) * 8 + 8; omega
  | ⟨3, _⟩ => show win0_2.index t (3 : Fin 4) * 64 ≤ (i 3).val ∧ (i 3).val < win0_2.index t (3 : Fin 4) * 64 + 64; omega

/-- After the run the result array is the channel concatenation of the argument arrays. -/
theorem final (c : Dev nD) : (dats m 0 c).arrAt 2 cfg0.N
    = chanCat (m ((c : Thread nD τ).loc main_arg0)) (m ((c : Thread nD τ).loc main_arg1)) :=
  (dats m 0 c).arrAt_eq_of_cover 2 _ (fun t _ => flushed_eq m c t) covered

/-- Every weakly fair execution of the kernel's program terminates with the result array at the channel
    concatenation of the argument arrays, which end unchanged. -/
theorem run : θ_run defs (onTc (τ := τ) (main (F := F))) ⟨m, fun _ => 0, ρ⟩ fun r => ∀ c : Dev nD,
      r.2.mem ((c : Thread nD τ).loc main_v0)
        = chanCat (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.CatValue

end
-- ==== Proof.lean ====
/-
  Both programs compute the concatenation, along the channel axis, of `x` (32 samples, 256 channels, 64 × 64
  positions) with `y` (32 samples, 8 channels) held constant over the 64 × 64 positions: the entry at `(b, c, h, w)` is
  `x[b, c, h, w]` for `c < 256` and `y[b, c - 256]` for `256 ≤ c` (Proof/Spec.lean). No arithmetic is done on the
  entries, so the equality of the two results uses no property of the extended reals and no finiteness of the inputs.

  The kernel side: at each of the 4 × 8 grid points the body copies the point's block of `x` onto the first 256
  channels of the output block and the point's block of `y`, repeated over rows and columns, onto the last 8
  (Proof/BlockCat.lean, over Proof/LibCanonUnit.lean); a block of the concatenation is the concatenation of the blocks,
  and the output blocks fill the result array (Proof/KernelCat.lean). The reference side: its joined array, read by cases
  on the channel, is the same function (Proof/RefCat.lean).

  The three frames are the generated runs with the results dropped; the idealization rewrote nothing, so the kernel
  and its idealized form are the same text and that conjunct is `True`.
-/
import proofs.«169716_j40398462386567_2_alg».proof.Defs
import proofs.«169716_j40398462386567_2_alg».proof.Proof.Gen.Kernel
import proofs.«169716_j40398462386567_2_alg».proof.Proof.Gen.Kernel.Skeleton
import proofs.«169716_j40398462386567_2_alg».proof.Proof.Gen.Kernel.Launch
import proofs.«169716_j40398462386567_2_alg».proof.Proof.Gen.Kernel.Points
import proofs.«169716_j40398462386567_2_alg».proof.Proof.Gen.Kernel.Frame
import proofs.«169716_j40398462386567_2_alg».proof.Proof.Gen.KernelIdeal
import proofs.«169716_j40398462386567_2_alg».proof.Proof.Gen.KernelIdeal.Skeleton
import proofs.«169716_j40398462386567_2_alg».proof.Proof.Gen.KernelIdeal.Launch
import proofs.«169716_j40398462386567_2_alg».proof.Proof.Gen.KernelIdeal.Points
import proofs.«169716_j40398462386567_2_alg».proof.Proof.Gen.KernelIdeal.Frame
import proofs.«169716_j40398462386567_2_alg».proof.Proof.Gen.ReferenceIdeal
import proofs.«169716_j40398462386567_2_alg».proof.Proof.Gen.Pre_finite_inputs
import proofs.«169716_j40398462386567_2_alg».proof.Proof.Gen.KernelIdeal.Value
import proofs.«169716_j40398462386567_2_alg».proof.Proof.Gen.ReferenceIdeal.Run
import proofs.«169716_j40398462386567_2_alg».proof.Proof.Gen.ReferenceIdeal.Read
import proofs.«169716_j40398462386567_2_alg».proof.Proof.Spec
import proofs.«169716_j40398462386567_2_alg».proof.Proof.RefCat
import proofs.«169716_j40398462386567_2_alg».proof.Proof.KernelCat
import Idealize.ShloMosaic.Adequacy
import Idealize.ShloMosaic.Init

noncomputable section

namespace Cert.Proof

open Idealize.ShloMosaic Idealize.ShloMosaic.TcCoe Idealize.SL.Sem

/-- The kernel as printed runs to the end, nothing faulting, and leaves its argument arrays as they were. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on `x` and `y`, the kernel's result array and the reference's both end at the channel
    concatenation of `x` with `y` held constant over the positions. -/
theorem algebraic : Cert.algebraic_KernelIdeal_ReferenceIdeal := by
  intro m ρ m' ρ' _ hagree
  refine ⟨fun c => Cert.ChanCat.chanCat (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.CatValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.CatValue.joined_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
